-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16384x1024 .f32) (main_arg1 : FVec F S1024x1024 .f32) (main_arg2 : FVec F S1024x1024 .f32) (main_arg3 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16384x1024x1 : Shape := ⟨3, ![16384, 1024, 1]⟩
abbrev S16384x1024x2 : Shape := ⟨3, ![16384, 1024, 2]⟩
abbrev S16384x1 : Shape := ⟨2, ![16384, 1]⟩
abbrev S16384x2 : Shape := ⟨2, ![16384, 2]⟩
abbrev S16384x1x2 : Shape := ⟨3, ![16384, 1, 2]⟩
abbrev S16384x1x1 : Shape := ⟨3, ![16384, 1, 1]⟩
abbrev S16384x2x2 : Shape := ⟨3, ![16384, 2, 2]⟩
abbrev S16384x2x1 : Shape := ⟨3, ![16384, 2, 1]⟩
abbrev S16384x4 : Shape := ⟨2, ![16384, 4]⟩
abbrev S16384x4x2 : Shape := ⟨3, ![16384, 4, 2]⟩
abbrev S16384x4x1 : Shape := ⟨3, ![16384, 4, 1]⟩
abbrev S16384x8 : Shape := ⟨2, ![16384, 8]⟩
abbrev S16384x8x2 : Shape := ⟨3, ![16384, 8, 2]⟩
abbrev S16384x8x1 : Shape := ⟨3, ![16384, 8, 1]⟩
abbrev S16384x16 : Shape := ⟨2, ![16384, 16]⟩
abbrev S16384x16x2 : Shape := ⟨3, ![16384, 16, 2]⟩
abbrev S16384x16x1 : Shape := ⟨3, ![16384, 16, 1]⟩
abbrev S16384x32 : Shape := ⟨2, ![16384, 32]⟩
abbrev S16384x32x2 : Shape := ⟨3, ![16384, 32, 2]⟩
abbrev S16384x32x1 : Shape := ⟨3, ![16384, 32, 1]⟩
abbrev S16384x64 : Shape := ⟨2, ![16384, 64]⟩
abbrev S16384x64x2 : Shape := ⟨3, ![16384, 64, 2]⟩
abbrev S16384x64x1 : Shape := ⟨3, ![16384, 64, 1]⟩
abbrev S16384x128 : Shape := ⟨2, ![16384, 128]⟩
abbrev S16384x128x2 : Shape := ⟨3, ![16384, 128, 2]⟩
abbrev S16384x128x1 : Shape := ⟨3, ![16384, 128, 1]⟩
abbrev S16384x256 : Shape := ⟨2, ![16384, 256]⟩
abbrev S16384x256x2 : Shape := ⟨3, ![16384, 256, 2]⟩
abbrev S16384x256x1 : Shape := ⟨3, ![16384, 256, 1]⟩
abbrev S16384x512 : Shape := ⟨2, ![16384, 512]⟩
abbrev S16384x512x2 : Shape := ⟨3, ![16384, 512, 2]⟩
abbrev S16384x512x1 : Shape := ⟨3, ![16384, 512, 1]⟩
abbrev S16384x2048 : Shape := ⟨2, ![16384, 2048]⟩

abbrev nBuf : Space → Nat
  | .hbm => 69
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024x1, .f32⟩
  | .hbm, ⟨12, _⟩ => ⟨S16384x1024x1, .f32⟩
  | .hbm, ⟨13, _⟩ => ⟨S16384x1024x2, .f32⟩
  | .hbm, ⟨14, _⟩ => ⟨S_, .f32⟩
  | .hbm, ⟨15, _⟩ => ⟨S16384x1, .f32⟩
  | .hbm, ⟨16, _⟩ => ⟨S_, .f32⟩
  | .hbm, ⟨17, _⟩ => ⟨S16384x2, .f32⟩
  | .hbm, ⟨18, _⟩ => ⟨S16384x1x2, .f32⟩
  | .hbm, ⟨19, _⟩ => ⟨S16384x1x1, .f32⟩
  | .hbm, ⟨20, _⟩ => ⟨S16384x1x2, .f32⟩
  | .hbm, ⟨21, _⟩ => ⟨S16384x1x2, .f32⟩
  | .hbm, ⟨22, _⟩ => ⟨S16384x2, .f32⟩
  | .hbm, ⟨23, _⟩ => ⟨S16384x2x2, .f32⟩
  | .hbm, ⟨24, _⟩ => ⟨S16384x2x1, .f32⟩
  | .hbm, ⟨25, _⟩ => ⟨S16384x2x2, .f32⟩
  | .hbm, ⟨26, _⟩ => ⟨S16384x2x2, .f32⟩
  | .hbm, ⟨27, _⟩ => ⟨S16384x4, .f32⟩
  | .hbm, ⟨28, _⟩ => ⟨S16384x4x2, .f32⟩
  | .hbm, ⟨29, _⟩ => ⟨S16384x4x1, .f32⟩
  | .hbm, ⟨30, _⟩ => ⟨S16384x4x2, .f32⟩
  | .hbm, ⟨31, _⟩ => ⟨S16384x4x2, .f32⟩
  | .hbm, ⟨32, _⟩ => ⟨S16384x8, .f32⟩
  | .hbm, ⟨33, _⟩ => ⟨S16384x8x2, .f32⟩
  | .hbm, ⟨34, _⟩ => ⟨S16384x8x1, .f32⟩
  | .hbm, ⟨35, _⟩ => ⟨S16384x8x2, .f32⟩
  | .hbm, ⟨36, _⟩ => ⟨S16384x8x2, .f32⟩
  | .hbm, ⟨37, _⟩ => ⟨S16384x16, .f32⟩
  | .hbm, ⟨38, _⟩ => ⟨S16384x16x2, .f32⟩
  | .hbm, ⟨39, _⟩ => ⟨S16384x16x1, .f32⟩
  | .hbm, ⟨40, _⟩ => ⟨S16384x16x2, .f32⟩
  | .hbm, ⟨41, _⟩ => ⟨S16384x16x2, .f32⟩
  | .hbm, ⟨42, _⟩ => ⟨S16384x32, .f32⟩
  | .hbm, ⟨43, _⟩ => ⟨S16384x32x2, .f32⟩
  | .hbm, ⟨44, _⟩ => ⟨S16384x32x1, .f32⟩
  | .hbm, ⟨45, _⟩ => ⟨S16384x32x2, .f32⟩
  | .hbm, ⟨46, _⟩ => ⟨S16384x32x2, .f32⟩
  | .hbm, ⟨47, _⟩ => ⟨S16384x64, .f32⟩
  | .hbm, ⟨48, _⟩ => ⟨S16384x64x2, .f32⟩
  | .hbm, ⟨49, _⟩ => ⟨S16384x64x1, .f32⟩
  | .hbm, ⟨50, _⟩ => ⟨S16384x64x2, .f32⟩
  | .hbm, ⟨51, _⟩ => ⟨S16384x64x2, .f32⟩
  | .hbm, ⟨52, _⟩ => ⟨S16384x128, .f32⟩
  | .hbm, ⟨53, _⟩ => ⟨S16384x128x2, .f32⟩
  | .hbm, ⟨54, _⟩ => ⟨S16384x128x1, .f32⟩
  | .hbm, ⟨55, _⟩ => ⟨S16384x128x2, .f32⟩
  | .hbm, ⟨56, _⟩ => ⟨S16384x128x2, .f32⟩
  | .hbm, ⟨57, _⟩ => ⟨S16384x256, .f32⟩
  | .hbm, ⟨58, _⟩ => ⟨S16384x256x2, .f32⟩
  | .hbm, ⟨59, _⟩ => ⟨S16384x256x1, .f32⟩
  | .hbm, ⟨60, _⟩ => ⟨S16384x256x2, .f32⟩
  | .hbm, ⟨61, _⟩ => ⟨S16384x256x2, .f32⟩
  | .hbm, ⟨62, _⟩ => ⟨S16384x512, .f32⟩
  | .hbm, ⟨63, _⟩ => ⟨S16384x512x2, .f32⟩
  | .hbm, ⟨64, _⟩ => ⟨S16384x512x1, .f32⟩
  | .hbm, ⟨65, _⟩ => ⟨S16384x512x2, .f32⟩
  | .hbm, ⟨66, _⟩ => ⟨S16384x512x2, .f32⟩
  | .hbm, ⟨67, _⟩ => ⟨S16384x1024, .f32⟩
  | .hbm, ⟨68, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bcast_S_S16384x1024 : S_.BroadcastsInDim S16384x1024 (![] : Fin 0 → Fin S16384x1024.rank)
  bcast_S16384x1024_S16384x1024x1_0_1 : S16384x1024.BroadcastsInDim S16384x1024x1 (![0, 1] : Fin 2 → Fin S16384x1024x1.rank)
  concatenates_S16384x1024x1_S16384x1024x1_S16384x1024x2_d2 : Shape.Concatenates [S16384x1024x1, S16384x1024x1] S16384x1024x2 2
  bcast_S_S16384x1 : S_.BroadcastsInDim S16384x1 (![] : Fin 0 → Fin S16384x1.rank)
  bcast_S_S16384x2 : S_.BroadcastsInDim S16384x2 (![] : Fin 0 → Fin S16384x2.rank)
  slices_S16384x1024x2_S16384x1x2_0_1_0 : S16384x1024x2.Slices ![0, 1, 0] S16384x1x2
  bcast_S16384x1_S16384x1x1_0_1 : S16384x1.BroadcastsInDim S16384x1x1 (![0, 1] : Fin 2 → Fin S16384x1x1.rank)
  bcast_S16384x1x1_S16384x1x2_0_1_2 : S16384x1x1.BroadcastsInDim S16384x1x2 (![0, 1, 2] : Fin 3 → Fin S16384x1x2.rank)
  shapeCasts_S16384x1x2_S16384x2 : S16384x1x2.ShapeCasts S16384x2
  slices_S16384x1024x2_S16384x2x2_0_2_0 : S16384x1024x2.Slices ![0, 2, 0] S16384x2x2
  bcast_S16384x2_S16384x2x1_0_1 : S16384x2.BroadcastsInDim S16384x2x1 (![0, 1] : Fin 2 → Fin S16384x2x1.rank)
  bcast_S16384x2x1_S16384x2x2_0_1_2 : S16384x2x1.BroadcastsInDim S16384x2x2 (![0, 1, 2] : Fin 3 → Fin S16384x2x2.rank)
  shapeCasts_S16384x2x2_S16384x4 : S16384x2x2.ShapeCasts S16384x4
  slices_S16384x1024x2_S16384x4x2_0_4_0 : S16384x1024x2.Slices ![0, 4, 0] S16384x4x2
  bcast_S16384x4_S16384x4x1_0_1 : S16384x4.BroadcastsInDim S16384x4x1 (![0, 1] : Fin 2 → Fin S16384x4x1.rank)
  bcast_S16384x4x1_S16384x4x2_0_1_2 : S16384x4x1.BroadcastsInDim S16384x4x2 (![0, 1, 2] : Fin 3 → Fin S16384x4x2.rank)
  shapeCasts_S16384x4x2_S16384x8 : S16384x4x2.ShapeCasts S16384x8
  slices_S16384x1024x2_S16384x8x2_0_8_0 : S16384x1024x2.Slices ![0, 8, 0] S16384x8x2
  bcast_S16384x8_S16384x8x1_0_1 : S16384x8.BroadcastsInDim S16384x8x1 (![0, 1] : Fin 2 → Fin S16384x8x1.rank)
  bcast_S16384x8x1_S16384x8x2_0_1_2 : S16384x8x1.BroadcastsInDim S16384x8x2 (![0, 1, 2] : Fin 3 → Fin S16384x8x2.rank)
  shapeCasts_S16384x8x2_S16384x16 : S16384x8x2.ShapeCasts S16384x16
  slices_S16384x1024x2_S16384x16x2_0_16_0 : S16384x1024x2.Slices ![0, 16, 0] S16384x16x2
  bcast_S16384x16_S16384x16x1_0_1 : S16384x16.BroadcastsInDim S16384x16x1 (![0, 1] : Fin 2 → Fin S16384x16x1.rank)
  bcast_S16384x16x1_S16384x16x2_0_1_2 : S16384x16x1.BroadcastsInDim S16384x16x2 (![0, 1, 2] : Fin 3 → Fin S16384x16x2.rank)
  shapeCasts_S16384x16x2_S16384x32 : S16384x16x2.ShapeCasts S16384x32
  slices_S16384x1024x2_S16384x32x2_0_32_0 : S16384x1024x2.Slices ![0, 32, 0] S16384x32x2
  bcast_S16384x32_S16384x32x1_0_1 : S16384x32.BroadcastsInDim S16384x32x1 (![0, 1] : Fin 2 → Fin S16384x32x1.rank)
  bcast_S16384x32x1_S16384x32x2_0_1_2 : S16384x32x1.BroadcastsInDim S16384x32x2 (![0, 1, 2] : Fin 3 → Fin S16384x32x2.rank)
  shapeCasts_S16384x32x2_S16384x64 : S16384x32x2.ShapeCasts S16384x64
  slices_S16384x1024x2_S16384x64x2_0_64_0 : S16384x1024x2.Slices ![0, 64, 0] S16384x64x2
  bcast_S16384x64_S16384x64x1_0_1 : S16384x64.BroadcastsInDim S16384x64x1 (![0, 1] : Fin 2 → Fin S16384x64x1.rank)
  bcast_S16384x64x1_S16384x64x2_0_1_2 : S16384x64x1.BroadcastsInDim S16384x64x2 (![0, 1, 2] : Fin 3 → Fin S16384x64x2.rank)
  shapeCasts_S16384x64x2_S16384x128 : S16384x64x2.ShapeCasts S16384x128
  slices_S16384x1024x2_S16384x128x2_0_128_0 : S16384x1024x2.Slices ![0, 128, 0] S16384x128x2
  bcast_S16384x128_S16384x128x1_0_1 : S16384x128.BroadcastsInDim S16384x128x1 (![0, 1] : Fin 2 → Fin S16384x128x1.rank)
  bcast_S16384x128x1_S16384x128x2_0_1_2 : S16384x128x1.BroadcastsInDim S16384x128x2 (![0, 1, 2] : Fin 3 → Fin S16384x128x2.rank)
  shapeCasts_S16384x128x2_S16384x256 : S16384x128x2.ShapeCasts S16384x256
  slices_S16384x1024x2_S16384x256x2_0_256_0 : S16384x1024x2.Slices ![0, 256, 0] S16384x256x2
  bcast_S16384x256_S16384x256x1_0_1 : S16384x256.BroadcastsInDim S16384x256x1 (![0, 1] : Fin 2 → Fin S16384x256x1.rank)
  bcast_S16384x256x1_S16384x256x2_0_1_2 : S16384x256x1.BroadcastsInDim S16384x256x2 (![0, 1, 2] : Fin 3 → Fin S16384x256x2.rank)
  shapeCasts_S16384x256x2_S16384x512 : S16384x256x2.ShapeCasts S16384x512
  slices_S16384x1024x2_S16384x512x2_0_512_0 : S16384x1024x2.Slices ![0, 512, 0] S16384x512x2
  bcast_S16384x512_S16384x512x1_0_1 : S16384x512.BroadcastsInDim S16384x512x1 (![0, 1] : Fin 2 → Fin S16384x512x1.rank)
  bcast_S16384x512x1_S16384x512x2_0_1_2 : S16384x512x1.BroadcastsInDim S16384x512x2 (![0, 1, 2] : Fin 3 → Fin S16384x512x2.rank)
  shapeCasts_S16384x512x2_S16384x1024 : S16384x512x2.ShapeCasts S16384x1024
  concatenates_S16384x2_S16384x2_S16384x4_S16384x8_S16384x16_S16384x32_S16384x64_S16384x128_S16384x256_S16384x512_S16384x1024_S16384x2048_d1 : Shape.Concatenates [S16384x2, S16384x2, S16384x4, S16384x8, S16384x16, S16384x32, S16384x64, S16384x128, S16384x256, S16384x512, S16384x1024] S16384x2048 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16384x1024x1 : Shape := ⟨3, ![16384, 1024, 1]⟩
abbrev S16384x1024x2 : Shape := ⟨3, ![16384, 1024, 2]⟩
abbrev S16384x1 : Shape := ⟨2, ![16384, 1]⟩
abbrev S16384x2 : Shape := ⟨2, ![16384, 2]⟩
abbrev S16384x1x2 : Shape := ⟨3, ![16384, 1, 2]⟩
abbrev S16384x1x1 : Shape := ⟨3, ![16384, 1, 1]⟩
abbrev S16384x2x2 : Shape := ⟨3, ![16384, 2, 2]⟩
abbrev S16384x2x1 : Shape := ⟨3, ![16384, 2, 1]⟩
abbrev S16384x4 : Shape := ⟨2, ![16384, 4]⟩
abbrev S16384x4x2 : Shape := ⟨3, ![16384, 4, 2]⟩
abbrev S16384x4x1 : Shape := ⟨3, ![16384, 4, 1]⟩
abbrev S16384x8 : Shape := ⟨2, ![16384, 8]⟩
abbrev S16384x8x2 : Shape := ⟨3, ![16384, 8, 2]⟩
abbrev S16384x8x1 : Shape := ⟨3, ![16384, 8, 1]⟩
abbrev S16384x16 : Shape := ⟨2, ![16384, 16]⟩
abbrev S16384x16x2 : Shape := ⟨3, ![16384, 16, 2]⟩
abbrev S16384x16x1 : Shape := ⟨3, ![16384, 16, 1]⟩
abbrev S16384x32 : Shape := ⟨2, ![16384, 32]⟩
abbrev S16384x32x2 : Shape := ⟨3, ![16384, 32, 2]⟩
abbrev S16384x32x1 : Shape := ⟨3, ![16384, 32, 1]⟩
abbrev S16384x64 : Shape := ⟨2, ![16384, 64]⟩
abbrev S16384x64x2 : Shape := ⟨3, ![16384, 64, 2]⟩
abbrev S16384x64x1 : Shape := ⟨3, ![16384, 64, 1]⟩
abbrev S16384x128 : Shape := ⟨2, ![16384, 128]⟩
abbrev S16384x128x2 : Shape := ⟨3, ![16384, 128, 2]⟩
abbrev S16384x128x1 : Shape := ⟨3, ![16384, 128, 1]⟩
abbrev S16384x256 : Shape := ⟨2, ![16384, 256]⟩
abbrev S16384x256x2 : Shape := ⟨3, ![16384, 256, 2]⟩
abbrev S16384x256x1 : Shape := ⟨3, ![16384, 256, 1]⟩
abbrev S16384x512 : Shape := ⟨2, ![16384, 512]⟩
abbrev S16384x512x2 : Shape := ⟨3, ![16384, 512, 2]⟩
abbrev S16384x512x1 : Shape := ⟨3, ![16384, 512, 1]⟩
abbrev S16384x2048 : Shape := ⟨2, ![16384, 2048]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024x1, .f32⟩
  | .hbm, ⟨21, _⟩ => ⟨S16384x1024x1, .f32⟩
  | .hbm, ⟨22, _⟩ => ⟨S16384x1024x2, .f32⟩
  | .hbm, ⟨23, _⟩ => ⟨S_, .f32⟩
  | .hbm, ⟨24, _⟩ => ⟨S16384x1, .f32⟩
  | .hbm, ⟨25, _⟩ => ⟨S_, .f32⟩
  | .hbm, ⟨26, _⟩ => ⟨S16384x2, .f32⟩
  | .hbm, ⟨27, _⟩ => ⟨S16384x1x2, .f32⟩
  | .hbm, ⟨28, _⟩ => ⟨S16384x1x1, .f32⟩
  | .hbm, ⟨29, _⟩ => ⟨S16384x1x2, .f32⟩
  | .hbm, ⟨30, _⟩ => ⟨S16384x1x2, .f32⟩
  | .hbm, ⟨31, _⟩ => ⟨S16384x2, .f32⟩
  | .hbm, ⟨32, _⟩ => ⟨S16384x2x2, .f32⟩
  | .hbm, ⟨33, _⟩ => ⟨S16384x2x1, .f32⟩
  | .hbm, ⟨34, _⟩ => ⟨S16384x2x2, .f32⟩
  | .hbm, ⟨35, _⟩ => ⟨S16384x2x2, .f32⟩
  | .hbm, ⟨36, _⟩ => ⟨S16384x4, .f32⟩
  | .hbm, ⟨37, _⟩ => ⟨S16384x4x2, .f32⟩
  | .hbm, ⟨38, _⟩ => ⟨S16384x4x1, .f32⟩
  | .hbm, ⟨39, _⟩ => ⟨S16384x4x2, .f32⟩
  | .hbm, ⟨40, _⟩ => ⟨S16384x4x2, .f32⟩
  | .hbm, ⟨41, _⟩ => ⟨S16384x8, .f32⟩
  | .hbm, ⟨42, _⟩ => ⟨S16384x8x2, .f32⟩
  | .hbm, ⟨43, _⟩ => ⟨S16384x8x1, .f32⟩
  | .hbm, ⟨44, _⟩ => ⟨S16384x8x2, .f32⟩
  | .hbm, ⟨45, _⟩ => ⟨S16384x8x2, .f32⟩
  | .hbm, ⟨46, _⟩ => ⟨S16384x16, .f32⟩
  | .hbm, ⟨47, _⟩ => ⟨S16384x16x2, .f32⟩
  | .hbm, ⟨48, _⟩ => ⟨S16384x16x1, .f32⟩
  | .hbm, ⟨49, _⟩ => ⟨S16384x16x2, .f32⟩
  | .hbm, ⟨50, _⟩ => ⟨S16384x16x2, .f32⟩
  | .hbm, ⟨51, _⟩ => ⟨S16384x32, .f32⟩
  | .hbm, ⟨52, _⟩ => ⟨S16384x32x2, .f32⟩
  | .hbm, ⟨53, _⟩ => ⟨S16384x32x1, .f32⟩
  | .hbm, ⟨54, _⟩ => ⟨S16384x32x2, .f32⟩
  | .hbm, ⟨55, _⟩ => ⟨S16384x32x2, .f32⟩
  | .hbm, ⟨56, _⟩ => ⟨S16384x64, .f32⟩
  | .hbm, ⟨57, _⟩ => ⟨S16384x64x2, .f32⟩
  | .hbm, ⟨58, _⟩ => ⟨S16384x64x1, .f32⟩
  | .hbm, ⟨59, _⟩ => ⟨S16384x64x2, .f32⟩
  | .hbm, ⟨60, _⟩ => ⟨S16384x64x2, .f32⟩
  | .hbm, ⟨61, _⟩ => ⟨S16384x128, .f32⟩
  | .hbm, ⟨62, _⟩ => ⟨S16384x128x2, .f32⟩
  | .hbm, ⟨63, _⟩ => ⟨S16384x128x1, .f32⟩
  | .hbm, ⟨64, _⟩ => ⟨S16384x128x2, .f32⟩
  | .hbm, ⟨65, _⟩ => ⟨S16384x128x2, .f32⟩
  | .hbm, ⟨66, _⟩ => ⟨S16384x256, .f32⟩
  | .hbm, ⟨67, _⟩ => ⟨S16384x256x2, .f32⟩
  | .hbm, ⟨68, _⟩ => ⟨S16384x256x1, .f32⟩
  | .hbm, ⟨69, _⟩ => ⟨S16384x256x2, .f32⟩
  | .hbm, ⟨70, _⟩ => ⟨S16384x256x2, .f32⟩
  | .hbm, ⟨71, _⟩ => ⟨S16384x512, .f32⟩
  | .hbm, ⟨72, _⟩ => ⟨S16384x512x2, .f32⟩
  | .hbm, ⟨73, _⟩ => ⟨S16384x512x1, .f32⟩
  | .hbm, ⟨74, _⟩ => ⟨S16384x512x2, .f32⟩
  | .hbm, ⟨75, _⟩ => ⟨S16384x512x2, .f32⟩
  | .hbm, ⟨76, _⟩ => ⟨S16384x1024, .f32⟩
  | .hbm, ⟨77, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S16384x1024_S16384x1024x1_0_1 : S16384x1024.BroadcastsInDim S16384x1024x1 (![0, 1] : Fin 2 → Fin S16384x1024x1.rank)
  concatenates_S16384x1024x1_S16384x1024x1_S16384x1024x2_d2 : Shape.Concatenates [S16384x1024x1, S16384x1024x1] S16384x1024x2 2
  bcast_S_S16384x1 : S_.BroadcastsInDim S16384x1 (![] : Fin 0 → Fin S16384x1.rank)
  bcast_S_S16384x2 : S_.BroadcastsInDim S16384x2 (![] : Fin 0 → Fin S16384x2.rank)
  slices_S16384x1024x2_S16384x1x2_0_1_0 : S16384x1024x2.Slices ![0, 1, 0] S16384x1x2
  bcast_S16384x1_S16384x1x1_0_1 : S16384x1.BroadcastsInDim S16384x1x1 (![0, 1] : Fin 2 → Fin S16384x1x1.rank)
  bcast_S16384x1x1_S16384x1x2_0_1_2 : S16384x1x1.BroadcastsInDim S16384x1x2 (![0, 1, 2] : Fin 3 → Fin S16384x1x2.rank)
  shapeCasts_S16384x1x2_S16384x2 : S16384x1x2.ShapeCasts S16384x2
  slices_S16384x1024x2_S16384x2x2_0_2_0 : S16384x1024x2.Slices ![0, 2, 0] S16384x2x2
  bcast_S16384x2_S16384x2x1_0_1 : S16384x2.BroadcastsInDim S16384x2x1 (![0, 1] : Fin 2 → Fin S16384x2x1.rank)
  bcast_S16384x2x1_S16384x2x2_0_1_2 : S16384x2x1.BroadcastsInDim S16384x2x2 (![0, 1, 2] : Fin 3 → Fin S16384x2x2.rank)
  shapeCasts_S16384x2x2_S16384x4 : S16384x2x2.ShapeCasts S16384x4
  slices_S16384x1024x2_S16384x4x2_0_4_0 : S16384x1024x2.Slices ![0, 4, 0] S16384x4x2
  bcast_S16384x4_S16384x4x1_0_1 : S16384x4.BroadcastsInDim S16384x4x1 (![0, 1] : Fin 2 → Fin S16384x4x1.rank)
  bcast_S16384x4x1_S16384x4x2_0_1_2 : S16384x4x1.BroadcastsInDim S16384x4x2 (![0, 1, 2] : Fin 3 → Fin S16384x4x2.rank)
  shapeCasts_S16384x4x2_S16384x8 : S16384x4x2.ShapeCasts S16384x8
  slices_S16384x1024x2_S16384x8x2_0_8_0 : S16384x1024x2.Slices ![0, 8, 0] S16384x8x2
  bcast_S16384x8_S16384x8x1_0_1 : S16384x8.BroadcastsInDim S16384x8x1 (![0, 1] : Fin 2 → Fin S16384x8x1.rank)
  bcast_S16384x8x1_S16384x8x2_0_1_2 : S16384x8x1.BroadcastsInDim S16384x8x2 (![0, 1, 2] : Fin 3 → Fin S16384x8x2.rank)
  shapeCasts_S16384x8x2_S16384x16 : S16384x8x2.ShapeCasts S16384x16
  slices_S16384x1024x2_S16384x16x2_0_16_0 : S16384x1024x2.Slices ![0, 16, 0] S16384x16x2
  bcast_S16384x16_S16384x16x1_0_1 : S16384x16.BroadcastsInDim S16384x16x1 (![0, 1] : Fin 2 → Fin S16384x16x1.rank)
  bcast_S16384x16x1_S16384x16x2_0_1_2 : S16384x16x1.BroadcastsInDim S16384x16x2 (![0, 1, 2] : Fin 3 → Fin S16384x16x2.rank)
  shapeCasts_S16384x16x2_S16384x32 : S16384x16x2.ShapeCasts S16384x32
  slices_S16384x1024x2_S16384x32x2_0_32_0 : S16384x1024x2.Slices ![0, 32, 0] S16384x32x2
  bcast_S16384x32_S16384x32x1_0_1 : S16384x32.BroadcastsInDim S16384x32x1 (![0, 1] : Fin 2 → Fin S16384x32x1.rank)
  bcast_S16384x32x1_S16384x32x2_0_1_2 : S16384x32x1.BroadcastsInDim S16384x32x2 (![0, 1, 2] : Fin 3 → Fin S16384x32x2.rank)
  shapeCasts_S16384x32x2_S16384x64 : S16384x32x2.ShapeCasts S16384x64
  slices_S16384x1024x2_S16384x64x2_0_64_0 : S16384x1024x2.Slices ![0, 64, 0] S16384x64x2
  bcast_S16384x64_S16384x64x1_0_1 : S16384x64.BroadcastsInDim S16384x64x1 (![0, 1] : Fin 2 → Fin S16384x64x1.rank)
  bcast_S16384x64x1_S16384x64x2_0_1_2 : S16384x64x1.BroadcastsInDim S16384x64x2 (![0, 1, 2] : Fin 3 → Fin S16384x64x2.rank)
  shapeCasts_S16384x64x2_S16384x128 : S16384x64x2.ShapeCasts S16384x128
  slices_S16384x1024x2_S16384x128x2_0_128_0 : S16384x1024x2.Slices ![0, 128, 0] S16384x128x2
  bcast_S16384x128_S16384x128x1_0_1 : S16384x128.BroadcastsInDim S16384x128x1 (![0, 1] : Fin 2 → Fin S16384x128x1.rank)
  bcast_S16384x128x1_S16384x128x2_0_1_2 : S16384x128x1.BroadcastsInDim S16384x128x2 (![0, 1, 2] : Fin 3 → Fin S16384x128x2.rank)
  shapeCasts_S16384x128x2_S16384x256 : S16384x128x2.ShapeCasts S16384x256
  slices_S16384x1024x2_S16384x256x2_0_256_0 : S16384x1024x2.Slices ![0, 256, 0] S16384x256x2
  bcast_S16384x256_S16384x256x1_0_1 : S16384x256.BroadcastsInDim S16384x256x1 (![0, 1] : Fin 2 → Fin S16384x256x1.rank)
  bcast_S16384x256x1_S16384x256x2_0_1_2 : S16384x256x1.BroadcastsInDim S16384x256x2 (![0, 1, 2] : Fin 3 → Fin S16384x256x2.rank)
  shapeCasts_S16384x256x2_S16384x512 : S16384x256x2.ShapeCasts S16384x512
  slices_S16384x1024x2_S16384x512x2_0_512_0 : S16384x1024x2.Slices ![0, 512, 0] S16384x512x2
  bcast_S16384x512_S16384x512x1_0_1 : S16384x512.BroadcastsInDim S16384x512x1 (![0, 1] : Fin 2 → Fin S16384x512x1.rank)
  bcast_S16384x512x1_S16384x512x2_0_1_2 : S16384x512x1.BroadcastsInDim S16384x512x2 (![0, 1, 2] : Fin 3 → Fin S16384x512x2.rank)
  shapeCasts_S16384x512x2_S16384x1024 : S16384x512x2.ShapeCasts S16384x1024
  concatenates_S16384x2_S16384x2_S16384x4_S16384x8_S16384x16_S16384x32_S16384x64_S16384x128_S16384x256_S16384x512_S16384x1024_S16384x2048_d1 : Shape.Concatenates [S16384x2, S16384x2, S16384x4, S16384x8, S16384x16, S16384x32, S16384x64, S16384x128, S16384x256, S16384x512, S16384x1024] S16384x2048 1
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelTiles.lean ====
/-
  The kernel program as printed (read at the word level) runs, faults nowhere and leaves its four arguments unchanged.

  The program is three conversions (the mask and the weights narrowed to the matrix unit's input format, the bias as a
  row), ONE tiled region — sixteen grid points, point t computing rows 1024·t … 1024·t + 1023 of the decision
  probabilities from the matching row tile of x and the whole mask, weights and bias row — and then the ten tree
  levels as plain array operations.  The body at a grid point loads its four input tiles whole, computes, and stores
  the output tile whole; so every input tile is left in place, x's array is never written back, and no operation
  writes an argument.  Stated for any float instance.
-/
import proofs.«179038_j42520176230890_1_alg».proof.Proof.Gen.Kernel.Launch
import proofs.«179038_j42520176230890_1_alg».proof.Proof.Gen.Kernel.Skeleton
import proofs.«179038_j42520176230890_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one tiled region -/

/-- What the core's buffers hold when the tiled region is entered: the launch contents after the three conversions
    before it (the mask and the weights narrowed, the bias as a row). -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the conversions, the region, then the tree levels as host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The tree levels touch only buffers that are not staging buffers. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- No tree-level operation writes a buffer among: x, the narrowed mask, the narrowed weights, the bias row, the
    probabilities (each writes its own result only). -/
theorem tail_keeps_ref (b : Ref sig .tc) (hb : b = main_arg0 ∨ b = main_arg1 ∨ b = main_arg2 ∨ b = main_arg3 ∨ b = main_v0 ∨ b = main_v1 ∨ b = main_v2 ∨ b = main_v3) :
    ∀ op ∈ (hostOps1 : List (HloOp τ sig (Elt F))), Proc.devRef .tc b ∉ op.writes := by
  refine List.forall_iff_forall_mem.mp ?_
  simp only [hostOps1, List.Forall, StableHlo.nullary_writes, StableHlo.unary_writes, StableHlo.binary_writes,
    StableHlo.reshape_writes, StableHlo.nary_writes, Finset.mem_singleton]
  rcases hb with rfl | rfl | rfl | rfl | rfl | rfl | rfl | rfl <;>
    (repeat' apply And.intro) <;> exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  fin_cases w
  · exact tail_keeps_ref main_arg0 (by simp) op hop
  · exact tail_keeps_ref main_v0 (by simp) op hop
  · exact tail_keeps_ref main_v1 (by simp) op hop
  · exact tail_keeps_ref main_v2 (by simp) op hop
  · exact tail_keeps_ref main_v3 (by simp) op hop

/-- No conversion before the region writes an argument: the region finds the arguments as launched. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    rcases hb with rfl | rfl | rfl | rfl <;>
      (repeat' apply And.intro) <;> exact StableHlo.devRef_ne_of_ne (by decide)))

/-- An argument that no window stages ends, after the tree levels, as launched. -/
theorem W_arg (dats : (p : Fin _) → (c : Dev nD) → Dat τ (Elt F) Unit ℕ (UR sig nD τ) ℕ (cfgs p) c) (c : Dev nD)
    (b : Ref sig .tc) (hb : b = main_arg1 ∨ b = main_arg2 ∨ b = main_arg3) (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (by
      simp only [List.flatten_cons, List.flatten_nil, List.append_nil]
      exact tail_keeps_ref b (by rcases hb with rfl | rfl | rfl <;> simp)),
    Pipeline.withArrays_of_ne _ c (V0 m c) _ b hne]
  exact V_arg m c b (by rcases hb with rfl | rfl | rfl <;> simp)

/-! ## The windows' tiles -/

/-- Window `w`'s tile at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its tile at every grid point, whether it was fetched there or kept from the
    point before (its tile index then has not moved): for x's row tile, -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- for the mask, -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- for the weights, -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- and for the bias row. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rT : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output tile after the body: one store of the whole tile, the tile computation of the four input tiles. -/
def outT (x0 : Vec F S1024x1024 .f32) (x1 : Vec F S1024x1024 .bf16) (x2 : Vec F S1024x1024 .bf16) (x3 : Vec F S1x1024 .f32) :
    Vec F S1024x1024 .f32 :=
  View.canon [⟨rT, k0_pay1 (View.ld x0 rT) (View.ld x1 rT) (View.ld x2 rT) (View.ld x3 rB)⟩]

/-- The one store covers the tile. -/
theorem coverT (p0 : Vec F S1024x1024 .f32) (y : S1024x1024.Idx) :
    ∃ pc ∈ ([⟨rT, p0⟩] : List (View.Piece (Elt F) S1024x1024 .f32)), y ∈ pc.1.set :=
  View.cover_of_tiled [⟨rT, p0⟩] S1024x1024.size (by rfl) y

/-! ## The body's run -/

set_option maxHeartbeats 4000000 in
/-- The body, on whole staging buffers with the inputs' at known contents and the output's at anything, runs without
    fault to the continuation, leaving the inputs' as they were and the output's at `outT` of the inputs'. -/
theorem sound_kernel (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S1024x1024 .f32) (harg5 : arg5.IsWhole)
    (x0 : Vec F S1024x1024 .f32) (x1 : Vec F S1024x1024 .bf16) (x2 : Vec F S1024x1024 .bf16) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outT x0 x1 x2 x3)) -∗ K ⟨⟩))
      ⊢ wp frame (wpE (defs₀ (F := F)) Variants.none c none) E (cc0__gemm_sigmoid_kernel i arg1 harg1 arg2 harg2 arg3 harg3 arg4 harg4 arg5 harg5) K := by
  simp only [cc0__gemm_sigmoid_kernel_eq_skeleton]; unfold cc0__gemm_sigmoid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverT _)

/-! ## The pipeline's proof data -/

/-- The arrays as the region finds them; after the body at a grid point each input's buffer at its tile and the
    output's at the tile computation of the input tiles; nothing else is used, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outT (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outT (iblk m c 0 t) (iblk m c 1 t) (iblk m c 2 t) (iblk m c 3 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates without a fault; the windows' arrays end at what the proof data compute
    and every other unscoped buffer as the tree levels leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- In a final state of that run the four arguments are unchanged: x is a window's array and every tile of an input
    window is left in place; the other three are staged by no window and written by no operation. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans ((((dats m 0 c).arrAt_in 0 rfl _).trans ((A_eq m c 0).trans (V_arg m c main_arg0 (by simp))))),
   ((h c).2 main_arg1 (Pipeline.mem_restRefs_of main_arg1 (by decide) (by decide))).trans (W_arg m (dats m) c main_arg1 (by simp) (by decide)),
   ((h c).2 main_arg2 (Pipeline.mem_restRefs_of main_arg2 (by decide) (by decide))).trans (W_arg m (dats m) c main_arg2 (by simp) (by decide)),
   ((h c).2 main_arg3 (Pipeline.mem_restRefs_of main_arg3 (by decide) (by decide))).trans (W_arg m (dats m) c main_arg3 (by simp) (by decide))⟩

/-- The program runs, faults nowhere, and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept m r h c) (run_main m ρ)

end Cert.Kernel.Tiles

end
-- ==== Proof.IdealTiles.lean ====
/-
  The idealized kernel program runs, faults nowhere and leaves its four arguments unchanged; and what it leaves in the
  other buffers is named.

  The program is three conversions (the mask and the weights narrowed to the matrix unit's input format, the bias as a
  row), ONE tiled region — sixteen grid points, point t computing rows 1024·t … 1024·t + 1023 of the decision
  probabilities from the matching row tile of x and the whole mask, weights and bias row — and then the ten tree
  levels as plain array operations.  The body at a grid point loads its four input tiles whole, computes, and stores
  the output tile whole; so after the body the output window's buffer holds the tile computation of the four input
  tiles, every input tile is left in place, and the region's launch theorem gives the run.  Stated for any float
  instance.
-/
import proofs.«179038_j42520176230890_1_alg».proof.Proof.Gen.KernelIdeal.Launch
import proofs.«179038_j42520176230890_1_alg».proof.Proof.Gen.KernelIdeal.Skeleton
import proofs.«179038_j42520176230890_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one tiled region -/

/-- What the core's buffers hold when the tiled region is entered: the launch contents after the three conversions
    before it (the mask and the weights narrowed, the bias as a row). -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the conversions, the region, then the tree levels as host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The tree levels touch only buffers that are not staging buffers. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- No tree-level operation writes a buffer among: x, the narrowed mask, the narrowed weights, the bias row, the
    probabilities (each writes its own result only). -/
theorem tail_keeps_ref (b : Ref sig .tc) (hb : b = main_arg0 ∨ b = main_arg1 ∨ b = main_arg2 ∨ b = main_arg3 ∨ b = main_v0 ∨ b = main_v1 ∨ b = main_v2 ∨ b = main_v3) :
    ∀ op ∈ (hostOps1 : List (HloOp τ sig (Elt F))), Proc.devRef .tc b ∉ op.writes := by
  refine List.forall_iff_forall_mem.mp ?_
  simp only [hostOps1, List.Forall, StableHlo.nullary_writes, StableHlo.unary_writes, StableHlo.binary_writes,
    StableHlo.reshape_writes, StableHlo.nary_writes, Finset.mem_singleton]
  rcases hb with rfl | rfl | rfl | rfl | rfl | rfl | rfl | rfl <;>
    (repeat' apply And.intro) <;> exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  fin_cases w
  · exact tail_keeps_ref main_arg0 (by simp) op hop
  · exact tail_keeps_ref main_v0 (by simp) op hop
  · exact tail_keeps_ref main_v1 (by simp) op hop
  · exact tail_keeps_ref main_v2 (by simp) op hop
  · exact tail_keeps_ref main_v3 (by simp) op hop

/-- No conversion before the region writes an argument: the region finds the arguments as launched. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    rcases hb with rfl | rfl | rfl | rfl <;>
      (repeat' apply And.intro) <;> exact StableHlo.devRef_ne_of_ne (by decide)))

/-- An argument that no window stages ends, after the tree levels, as launched. -/
theorem W_arg (dats : (p : Fin _) → (c : Dev nD) → Dat τ (Elt F) Unit ℕ (UR sig nD τ) ℕ (cfgs p) c) (c : Dev nD)
    (b : Ref sig .tc) (hb : b = main_arg1 ∨ b = main_arg2 ∨ b = main_arg3) (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (by
      simp only [List.flatten_cons, List.flatten_nil, List.append_nil]
      exact tail_keeps_ref b (by rcases hb with rfl | rfl | rfl <;> simp)),
    Pipeline.withArrays_of_ne _ c (V0 m c) _ b hne]
  exact V_arg m c b (by rcases hb with rfl | rfl | rfl <;> simp)

/-! ## The windows' tiles -/

/-- Window `w`'s tile at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its tile at every grid point, whether it was fetched there or kept from the
    point before (its tile index then has not moved): for x's row tile, -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- for the mask, -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- for the weights, -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- and for the bias row. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rT : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The output tile after the body: one store of the whole tile, the tile computation of the four input tiles. -/
def outT (x0 : Vec F S1024x1024 .f32) (x1 : Vec F S1024x1024 .bf16) (x2 : Vec F S1024x1024 .bf16) (x3 : Vec F S1x1024 .f32) :
    Vec F S1024x1024 .f32 :=
  View.canon [⟨rT, k0_pay1 (View.ld x0 rT) (View.ld x1 rT) (View.ld x2 rT) (View.ld x3 rB)⟩]

/-- The one store covers the tile. -/
theorem coverT (p0 : Vec F S1024x1024 .f32) (y : S1024x1024.Idx) :
    ∃ pc ∈ ([⟨rT, p0⟩] : List (View.Piece (Elt F) S1024x1024 .f32)), y ∈ pc.1.set :=
  View.cover_of_tiled [⟨rT, p0⟩] S1024x1024.size (by rfl) y

/-! ## The body's run -/

set_option maxHeartbeats 4000000 in
/-- The body, on whole staging buffers with the inputs' at known contents and the output's at anything, runs without
    fault to the continuation, leaving the inputs' as they were and the output's at `outT` of the inputs'. -/
theorem sound_kernel (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S1024x1024 .f32) (harg5 : arg5.IsWhole)
    (x0 : Vec F S1024x1024 .f32) (x1 : Vec F S1024x1024 .bf16) (x2 : Vec F S1024x1024 .bf16) (x3 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outT x0 x1 x2 x3)) -∗ K ⟨⟩))
      ⊢ wp frame (wpE (defs₀ (F := F)) Variants.none c none) E (cc0__gemm_sigmoid_kernel i arg1 harg1 arg2 harg2 arg3 harg3 arg4 harg4 arg5 harg5) K := by
  simp only [cc0__gemm_sigmoid_kernel_eq_skeleton]; unfold cc0__gemm_sigmoid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverT _)

/-! ## The pipeline's proof data -/

/-- The arrays as the region finds them; after the body at a grid point each input's buffer at its tile and the
    output's at the tile computation of the input tiles; nothing else is used, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outT (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outT (iblk m c 0 t) (iblk m c 1 t) (iblk m c 2 t) (iblk m c 3 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates without a fault; the windows' arrays end at what the proof data compute
    and every other unscoped buffer as the tree levels leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- In a final state of that run the four arguments are unchanged: x is a window's array and every tile of an input
    window is left in place; the other three are staged by no window and written by no operation. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans ((((dats m 0 c).arrAt_in 0 rfl _).trans ((A_eq m c 0).trans (V_arg m c main_arg0 (by simp))))),
   ((h c).2 main_arg1 (Pipeline.mem_restRefs_of main_arg1 (by decide) (by decide))).trans (W_arg m (dats m) c main_arg1 (by simp) (by decide)),
   ((h c).2 main_arg2 (Pipeline.mem_restRefs_of main_arg2 (by decide) (by decide))).trans (W_arg m (dats m) c main_arg2 (by simp) (by decide)),
   ((h c).2 main_arg3 (Pipeline.mem_restRefs_of main_arg3 (by decide) (by decide))).trans (W_arg m (dats m) c main_arg3 (by simp) (by decide))⟩

/-- The program runs, faults nowhere, and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept m r h c) (run_main m ρ)

end Cert.KernelIdeal.Tiles

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.TileProb.lean ====
/-
  One entry of a tile of decision probabilities.  The tile's arithmetic is a single pure term: the tile of x, narrowed
  (no change of value on the extended reals), times the mask; that product, narrowed again, times the weights; plus the
  bias row spread over the tile's rows; then the logistic function, entry by entry.  Read at entry (p, q) the two
  matrix products are plain sums over the shared axis, and the spread bias is the bias at q.
-/
import proofs.«179038_j42520176230890_1_alg».proof.Proof.Gen.KernelIdeal.Skeleton
import proofs.«179038_j42520176230890_1_alg».proof.Proof.LibPlainDot
import Idealize.ShloMosaic.Lib.ValueIdx
import Idealize.ShloMosaic.Lib.Pipeline.Value
import Idealize.ShloMosaic.PureOps.Ideal.Laws

noncomputable section

namespace Cert.KernelIdeal.TileProb
open Idealize.ShloMosaic Idealize.ShloMosaic.ValueIdx
open Cert.KernelIdeal Cert.KernelIdeal.Gen

/-- The tile's matrix product into a zero accumulator, at entry (r, c): the sum over k of left(r, k) · right(k, c). -/
theorem tileDot_apply {φ₁ φ₂ : FTy} (prec : Option ContractPrecision) (lhs : FVec Ideal S1024x1024 φ₁) (rhs : FVec Ideal S1024x1024 φ₂)
    (r c : Fin 1024) :
    FloatOps.matmul dot_S1024x1024_S1024x1024_S1024x1024_1_0_0_1_n_n prec lhs rhs (constant S1024x1024 .f32 0x00000000#32) (ix2 r c)
      = ∑ k : Fin 1024, lhs (ix2 r k) * rhs (ix2 k c) :=
  Cert.LibPlainDot.matmul_zero_apply (M := 1024) (K := 1024) (N := 1024) dot_S1024x1024_S1024x1024_S1024x1024_1_0_0_1_n_n
    rfl rfl rfl rfl (fun _ _ => rfl) (fun _ _ => rfl) prec lhs rhs r c

/-- The bias row [1, 1024] spread over the tile's 1024 rows reads, at (p, q), the row at (0, q). -/
theorem biasRow_apply (v : Vec Ideal S1x1024 .f32) (h : S1x1024.Broadcasts S1024x1024) (p q : Fin 1024) :
    broadcastTo S1024x1024 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- One entry of a tile of decision probabilities: the logistic function of the tile's row p of x times the mask,
    times column q of W, plus the bias at q. -/
theorem pay_apply (x0 : Vec Ideal S1024x1024 .f32) (v2 v6 : Vec Ideal S1024x1024 .bf16) (v9 : Vec Ideal S1x1024 .f32)
    (p q : Fin 1024) :
    k0_pay1 (F := Ideal) x0 v2 v6 v9 (ix2 p q)
      = Ideal.logistic ((∑ k' : Fin 1024, (∑ k : Fin 1024, x0 (ix2 p k) * v2 (ix2 k k')) * v6 (ix2 k' q))
          + v9 (ix2 (0 : Fin 1) q)) := by
  unfold k0_pay1
  show Ideal.logistic (_ + _) = Ideal.logistic (_ + _)
  refine congrArg Ideal.logistic (congrArg₂ (· + ·) ?_ ?_)
  · refine (tileDot_apply none _ _ p q).trans ?_
    refine Finset.sum_congr rfl fun k' _ => ?_
    refine congrArg₂ (· * ·) ?_ ?_
    · show matmul (F := Ideal) dot_S1024x1024_S1024x1024_S1024x1024_1_0_0_1_n_n none _ _ _ (ix2 p k') = _
      refine (tileDot_apply none _ _ p k').trans ?_
      refine Finset.sum_congr rfl fun k _ => ?_
      refine congrArg₂ (· * ·) rfl ?_
      rw [shapeCast_self]
    · rw [shapeCast_self]
  · rw [shapeCast_self]
    exact biasRow_apply v9 _ p q

end Cert.KernelIdeal.TileProb

end
-- ==== Proof.Spec.lean ====
/-
  The decision probabilities of the soft tree, as one function of the four argument arrays.

  Sample r's features are the row x(r, ·) times the feature-selection matrix; node q's logit is that feature row times
  column q of the weights, plus the bias b(q); the probability of branching left at node q is the logistic function of
  the logit.  Both programs compute this array (one on the matrix unit, tile of rows by tile of rows, the other by two
  whole matrix products), and everything after it — the path probabilities of the ten tree levels — is a function of
  this array alone.
-/
import Idealize.ShloMosaic.PureOps.Ideal
import Idealize.ShloMosaic.Lib.ValueIdx

noncomputable section

namespace Cert.Spec

open Idealize.ShloMosaic Idealize.ShloMosaic.ValueIdx

/-- Node q's logit for sample r: (x · mask)(r, ·) · W(·, q) + b(q), the two products as plain sums. -/
def logit (x : FVec Ideal (⟨2, ![16384, 1024]⟩ : Shape) .f32) (fm W : FVec Ideal (⟨2, ![1024, 1024]⟩ : Shape) .f32)
    (b : FVec Ideal (⟨1, ![1024]⟩ : Shape) .f32) (r : Fin 16384) (q : Fin 1024) : EReal :=
  (∑ k' : Fin 1024, (∑ k : Fin 1024, x (ix2 r k) * fm (ix2 k k')) * W (ix2 k' q)) + b (ix1 q)

/-- The probability of branching left at node q for sample r. -/
def prob (x : FVec Ideal (⟨2, ![16384, 1024]⟩ : Shape) .f32) (fm W : FVec Ideal (⟨2, ![1024, 1024]⟩ : Shape) .f32)
    (b : FVec Ideal (⟨1, ![1024]⟩ : Shape) .f32) : FVec Ideal (⟨2, ![16384, 1024]⟩ : Shape) .f32 :=
  fun i => Ideal.logistic (logit x fm W b (i 0) (i 1))

theorem prob_apply (x : FVec Ideal (⟨2, ![16384, 1024]⟩ : Shape) .f32) (fm W : FVec Ideal (⟨2, ![1024, 1024]⟩ : Shape) .f32)
    (b : FVec Ideal (⟨1, ![1024]⟩ : Shape) .f32) (r : Fin 16384) (q : Fin 1024) :
    prob x fm W b (ix2 r q) = Ideal.logistic (logit x fm W b r q) := rfl

end Cert.Spec

end
-- ==== Proof.ProbArray.lean ====
/-
  The array of decision probabilities after the tiled region is the specification's, at the ideal instance.

  Grid point t writes back rows 1024·t … 1024·t + 1023: entry (p, q) of its tile is the logistic function of row p of
  x's tile — row 1024·t + p of x — times the mask, times column q of the weights, plus the bias at q; the mask, the
  weights and the bias row are whole arrays at every point.  So every point writes back its rows of ONE array, the
  sixteen row tiles cover all 16384 rows, and the array ends as that one function of the four arguments.  The narrowing
  of the mask and of the weights is the identity on extended reals, and the bias row holds the bias.
-/
import proofs.«179038_j42520176230890_1_alg».proof.Proof.IdealTiles
import proofs.«179038_j42520176230890_1_alg».proof.Proof.TileProb
import proofs.«179038_j42520176230890_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.ProbArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tiles

variable (m : (ℓ : Loc nD τ sig) → Buf (Elt Ideal) ℓ) (ρ : Dev nD → PrngReg)

/-! ## The arrays the region finds -/

/-- The narrowed mask is the mask. -/
theorem V_mask (c : Dev nD) (i : S1024x1024.Idx) :
    (V m c main_v0 : S1024x1024.Idx → EReal) i = (m ((c : Thread nD τ).loc main_arg1) : S1024x1024.Idx → EReal) i := by
  have e : @Eq (S1024x1024.Idx → EReal) (V m c main_v0)
      (truncf (F := Ideal) .bf16 (m ((c : Thread nD τ).loc main_arg1) : FVec Ideal S1024x1024 .f32) bitsLt_bf16_f32) := by
    show StableHlo.after hostOps0 (fun b => m (c, b)) (Proc.devRef .tc main_v0) = _
    after_results <;> rfl
  rw [e]; rfl

/-- The narrowed weights are the weights. -/
theorem V_weights (c : Dev nD) (i : S1024x1024.Idx) :
    (V m c main_v1 : S1024x1024.Idx → EReal) i = (m ((c : Thread nD τ).loc main_arg2) : S1024x1024.Idx → EReal) i := by
  have e : @Eq (S1024x1024.Idx → EReal) (V m c main_v1)
      (truncf (F := Ideal) .bf16 (m ((c : Thread nD τ).loc main_arg2) : FVec Ideal S1024x1024 .f32) bitsLt_bf16_f32) := by
    show StableHlo.after hostOps0 (fun b => m (c, b)) (Proc.devRef .tc main_v1) = _
    after_results <;> rfl
  rw [e]; rfl

/-- The bias row holds the bias. -/
theorem V_bias (c : Dev nD) (q : Fin 1024) :
    (V m c main_v2 : S1x1024.Idx → EReal) (ix2 (0 : Fin 1) q) = (m ((c : Thread nD τ).loc main_arg3) : S1024.Idx → EReal) (ix1 q) := by
  have e : @Eq (S1x1024.Idx → EReal) (V m c main_v2)
      (shapeCast S1x1024 (m ((c : Thread nD τ).loc main_arg3) : S1024.Idx → EReal) shapeCasts_S1024_S1x1024) := by
    show StableHlo.after hostOps0 (fun b => m (c, b)) (Proc.devRef .tc main_v2) = _
    after_results <;> rfl
  rw [e]
  refine shapeCast_apply _ _ _ _ ?_
  show ((⟨1, ![1024]⟩ : Shape).rowMajor (ix1 q)).val = ((⟨2, ![1, 1024]⟩ : Shape).rowMajor (ix2 (0 : Fin 1) q)).val
  rw [Shape.rowMajor_val_one, Shape.rowMajor_val_two]
  show q.val = 0 * 1024 + q.val
  omega

/-! ## The tiles' places in their arrays -/

theorem hz : (![0, 0] : Fin 2 → Nat) = fun _ => 0 := funext fun a => by fin_cases a <;> rfl

/-- The printed tile indices over the grid: x's row tile and the output's row tile are the point's; the mask, the
    weights and the bias row are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row (1024·t + p) of the array. -/
def rowOf (t : Fin cfg0.N) (p : Fin 1024) : Fin 16384 := ⟨t.val * 1024 + p.val, by
  have h : t.val < 16 := by have := t.isLt; have e : cfg0.N = 16 := N_0; omega
  have := p.isLt; omega⟩

/-- Entry (p, k) of x's row tile at point t is x(1024·t + p, k). -/
theorem tile_x (c : Dev nD) (t : Fin cfg0.N) (p k : Fin 1024) :
    iblk m c 0 t (ix2 p k) = V m c main_arg0 (ix2 (rowOf t p) k) := by
  obtain ⟨e0, e1, -⟩ := idx_facts t
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The mask's tile is the mask. -/
theorem tile_mask (c : Dev nD) (t : Fin cfg0.N) (k k' : Fin 1024) :
    iblk m c 1 t (ix2 k k') = V m c main_v0 (ix2 k k') := by
  obtain ⟨-, -, e0, e1, -⟩ := idx_facts t
  show V m c main_v0 (((cfg0.win 1).blk t).view.emb (ix2 k k')) = V m c main_v0 (ix2 k k')
  refine congrArg (V m c main_v0) (funext fun a => Fin.ext ?_)
  match a with
  | ⟨0, _⟩ => show win0_1.index t (0 : Fin 2) * 1024 + 1 * k.val = k.val; omega
  | ⟨1, _⟩ => show win0_1.index t (1 : Fin 2) * 1024 + 1 * k'.val = k'.val; omega

/-- The weights' tile is the weights. -/
theorem tile_weights (c : Dev nD) (t : Fin cfg0.N) (k k' : Fin 1024) :
    iblk m c 2 t (ix2 k k') = V m c main_v1 (ix2 k k') := by
  obtain ⟨-, -, -, -, e0, e1, -⟩ := idx_facts t
  show V m c main_v1 (((cfg0.win 2).blk t).view.emb (ix2 k k')) = V m c main_v1 (ix2 k k')
  refine congrArg (V m c main_v1) (funext fun a => Fin.ext ?_)
  match a with
  | ⟨0, _⟩ => show win0_2.index t (0 : Fin 2) * 1024 + 1 * k.val = k.val; omega
  | ⟨1, _⟩ => show win0_2.index t (1 : Fin 2) * 1024 + 1 * k'.val = k'.val; omega

/-- The bias row's tile is the bias row. -/
theorem tile_bias (c : Dev nD) (t : Fin cfg0.N) (q : Fin 1024) :
    iblk m c 3 t (ix2 (0 : Fin 1) q) = V m c main_v2 (ix2 (0 : Fin 1) q) := by
  obtain ⟨-, -, -, -, -, -, e0, e1, -⟩ := idx_facts t
  show V m c main_v2 (((cfg0.win 3).blk t).view.emb (ix2 (0 : Fin 1) q)) = V m c main_v2 (ix2 (0 : Fin 1) q)
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

/-- Entry (p, q) of the output's tile at point t sits at (1024·t + p, q) of the array. -/
theorem tile_out (t : Fin cfg0.N) (p q : Fin 1024) :
    ((cfg0.win 4).blk t).view.emb (ix2 p q) = ix2 (rowOf t p) q := by
  obtain ⟨-, -, -, -, -, -, -, -, e0, e1⟩ := idx_facts t
  funext a; apply Fin.ext
  match a with
  | ⟨0, _⟩ => show win0_4.index t (0 : Fin 2) * 1024 + 1 * p.val = t.val * 1024 + p.val; omega
  | ⟨1, _⟩ => show win0_4.index t (1 : Fin 2) * 1024 + 1 * q.val = q.val; omega

/-! ## The array after the region -/

/-- The specification at the launch arguments. -/
def probOf (c : Dev nD) : FVec Ideal S16384x1024 .f32 :=
  Cert.Spec.prob (m ((c : Thread nD τ).loc main_arg0)) (m ((c : Thread nD τ).loc main_arg1))
    (m ((c : Thread nD τ).loc main_arg2)) (m ((c : Thread nD τ).loc main_arg3))

/-- What point t writes back is its row tile of the specification's array. -/
theorem flushed_eq (c : Dev nD) (t : Fin cfg0.N) :
    (dats m 0 c).flushed 4 t = ((cfg0.win 4).blk t).view.read (Elt Ideal) (probOf m c) := by
  show (cfg0.win 4).cut (grid0.coords t) ((dats m 0 c).after 4 t) = _
  rw [after_4]
  unfold outT
  rw [View.canon_unit_zero hz]
  simp only [View.ld_unit_zero (S := S1024x1024) hz, View.ld_unit_zero (S := S1x1024) hz]
  funext j
  obtain ⟨p, q, rfl⟩ : ∃ (p q : Fin 1024), j = ix2 p q := ⟨j 0, j 1, eq_ix2 j⟩
  show k0_pay1 (F := Ideal) (iblk m c 0 t) (iblk m c 1 t) (iblk m c 2 t) (iblk m c 3 t) (ix2 p q)
    = probOf m c (((cfg0.win 4).blk t).view.emb (ix2 p q))
  rw [tile_out t p q, Cert.KernelIdeal.TileProb.pay_apply]
  unfold probOf
  rw [Cert.Spec.prob_apply]
  unfold Cert.Spec.logit
  refine congrArg Ideal.logistic ?_
  refine congrArg₂ (· + ·) (Finset.sum_congr rfl fun k' _ => ?_) ?_
  · refine congrArg₂ (· * ·) (Finset.sum_congr rfl fun k _ => ?_) ?_
    · rw [tile_x m c t p k, tile_mask m c t k k', V_arg m c main_arg0 (by simp)]
      exact congrArg _ (V_mask m c (ix2 k k'))
    · rw [tile_weights m c t k' q]
      exact V_weights m c (ix2 k' q)
  · rw [tile_bias m c t q]
    exact V_bias m c q

/-- An index of the array is in point t's tile iff its row is among the tile's. -/
theorem mem_blk (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- The sixteen row tiles cover the array: row r is in tile r / 1024. -/
theorem cover (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 16 := N_0
  let t : Fin cfg0.N := ⟨(i 0).val / 1024, by omega⟩
  obtain ⟨-, -, -, -, -, -, -, -, e0, e1⟩ := idx_facts t
  have ht : t.val = (i 0).val / 1024 := rfl
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The array of decision probabilities after the region is the specification's at the launch arguments. -/
theorem final (c : Dev nD) : (dats m 0 c).arrAt 4 cfg0.N = probOf m c :=
  (dats m 0 c).arrAt_eq_of_cover 4 (probOf m c) (fun t _ => flushed_eq m c t) cover

end Cert.KernelIdeal.ProbArray

end
-- ==== Proof.Paths.lean ====
import proofs.«179038_j42520176230890_1_alg».proof.Proof.Gen.KernelIdeal.Launch
import proofs.«179038_j42520176230890_1_alg».proof.Proof.Gen.ReferenceIdeal.Run
import Idealize.ShloMosaic.Lib.StableHlo.Run

/-!
# The ten tree levels as one function of the decision probabilities

From the array `d` of decision probabilities (one per sample and inner node of a complete binary tree with
1024 leaves, node `n` at column `n`, column `0` unused) both programs build the same thing:

* the stack `s[i, n, ·] = (d[i, n], 1 - d[i, n])`: at every node the probability of each of its two branches;
* level by level, `mu₀ = 1` and `mu_{l+1}[i, 2·p + b] = mu_l[i, p] * s[i, 2^l + p, b]`: the probability of the path
  to a node of level `l + 1` is its parent's path probability times the branch probability;
* the result, `[1, 1, mu₁, …, mu₁₀]` side by side: 2048 columns.

This module names that function (`paths`), shows that the kernel program's last 61 host operations compute
it from whatever the probability buffer holds, and that the reference program's result term is the same function
of its own probability term.
-/

noncomputable section
namespace Cert.KernelIdeal.Paths

open Idealize.ShloMosaic Idealize.ShloMosaic.TcCoe Idealize.ShloMosaic.StableHlo
open Cert.KernelIdeal Cert.KernelIdeal.Gen

variable {F : FTy → Type} [FloatOps F]

/-- The branch probabilities: at every node, the decision probability and its complement, stacked on a new last axis. -/
def stack (d : FVec F S16384x1024 .f32) : FVec F S16384x1024x2 .f32 :=
  concatenate S16384x1024x2 2 [⟨S16384x1024x1, (broadcastInDim S16384x1024x1 ![0, 1] bcast_S16384x1024_S16384x1024x1_0_1 d)⟩, ⟨S16384x1024x1, (broadcastInDim S16384x1024x1 ![0, 1] bcast_S16384x1024_S16384x1024x1_0_1 (subf (broadcastInDim S16384x1024 ![] bcast_S_S16384x1024 (constant S_ .f32 0x3F800000#32)) d))⟩] concatenates_S16384x1024x1_S16384x1024x1_S16384x1024x2_d2

/-- Level 1: the root's weight one, each split by the decision pair of its node (nodes 1 … 1 of the stack), gives 2 path probabilities. -/
def level1 (d : FVec F S16384x1024 .f32) : FVec F S16384x2 .f32 :=
  shapeCast _ (mulf (broadcastInDim S16384x1x2 ![0, 1, 2] bcast_S16384x1x1_S16384x1x2_0_1_2 (broadcastInDim S16384x1x1 ![0, 1] bcast_S16384x1_S16384x1x1_0_1 (broadcastInDim S16384x1 ![] bcast_S_S16384x1 (constant S_ .f32 0x3F800000#32)))) (extractStridedSlice S16384x1x2 ![0, 1, 0] (stack d) slices_S16384x1024x2_S16384x1x2_0_1_0)) shapeCasts_S16384x1x2_S16384x2

/-- Level 2: the 2 path probabilities of level 1, each split by the decision pair of its node (nodes 2 … 3 of the stack), gives 4 path probabilities. -/
def level2 (d : FVec F S16384x1024 .f32) : FVec F S16384x4 .f32 :=
  shapeCast _ (mulf (broadcastInDim S16384x2x2 ![0, 1, 2] bcast_S16384x2x1_S16384x2x2_0_1_2 (broadcastInDim S16384x2x1 ![0, 1] bcast_S16384x2_S16384x2x1_0_1 (level1 d))) (extractStridedSlice S16384x2x2 ![0, 2, 0] (stack d) slices_S16384x1024x2_S16384x2x2_0_2_0)) shapeCasts_S16384x2x2_S16384x4

/-- Level 3: the 4 path probabilities of level 2, each split by the decision pair of its node (nodes 4 … 7 of the stack), gives 8 path probabilities. -/
def level3 (d : FVec F S16384x1024 .f32) : FVec F S16384x8 .f32 :=
  shapeCast _ (mulf (broadcastInDim S16384x4x2 ![0, 1, 2] bcast_S16384x4x1_S16384x4x2_0_1_2 (broadcastInDim S16384x4x1 ![0, 1] bcast_S16384x4_S16384x4x1_0_1 (level2 d))) (extractStridedSlice S16384x4x2 ![0, 4, 0] (stack d) slices_S16384x1024x2_S16384x4x2_0_4_0)) shapeCasts_S16384x4x2_S16384x8

/-- Level 4: the 8 path probabilities of level 3, each split by the decision pair of its node (nodes 8 … 15 of the stack), gives 16 path probabilities. -/
def level4 (d : FVec F S16384x1024 .f32) : FVec F S16384x16 .f32 :=
  shapeCast _ (mulf (broadcastInDim S16384x8x2 ![0, 1, 2] bcast_S16384x8x1_S16384x8x2_0_1_2 (broadcastInDim S16384x8x1 ![0, 1] bcast_S16384x8_S16384x8x1_0_1 (level3 d))) (extractStridedSlice S16384x8x2 ![0, 8, 0] (stack d) slices_S16384x1024x2_S16384x8x2_0_8_0)) shapeCasts_S16384x8x2_S16384x16

/-- Level 5: the 16 path probabilities of level 4, each split by the decision pair of its node (nodes 16 … 31 of the stack), gives 32 path probabilities. -/
def level5 (d : FVec F S16384x1024 .f32) : FVec F S16384x32 .f32 :=
  shapeCast _ (mulf (broadcastInDim S16384x16x2 ![0, 1, 2] bcast_S16384x16x1_S16384x16x2_0_1_2 (broadcastInDim S16384x16x1 ![0, 1] bcast_S16384x16_S16384x16x1_0_1 (level4 d))) (extractStridedSlice S16384x16x2 ![0, 16, 0] (stack d) slices_S16384x1024x2_S16384x16x2_0_16_0)) shapeCasts_S16384x16x2_S16384x32

/-- Level 6: the 32 path probabilities of level 5, each split by the decision pair of its node (nodes 32 … 63 of the stack), gives 64 path probabilities. -/
def level6 (d : FVec F S16384x1024 .f32) : FVec F S16384x64 .f32 :=
  shapeCast _ (mulf (broadcastInDim S16384x32x2 ![0, 1, 2] bcast_S16384x32x1_S16384x32x2_0_1_2 (broadcastInDim S16384x32x1 ![0, 1] bcast_S16384x32_S16384x32x1_0_1 (level5 d))) (extractStridedSlice S16384x32x2 ![0, 32, 0] (stack d) slices_S16384x1024x2_S16384x32x2_0_32_0)) shapeCasts_S16384x32x2_S16384x64

/-- Level 7: the 64 path probabilities of level 6, each split by the decision pair of its node (nodes 64 … 127 of the stack), gives 128 path probabilities. -/
def level7 (d : FVec F S16384x1024 .f32) : FVec F S16384x128 .f32 :=
  shapeCast _ (mulf (broadcastInDim S16384x64x2 ![0, 1, 2] bcast_S16384x64x1_S16384x64x2_0_1_2 (broadcastInDim S16384x64x1 ![0, 1] bcast_S16384x64_S16384x64x1_0_1 (level6 d))) (extractStridedSlice S16384x64x2 ![0, 64, 0] (stack d) slices_S16384x1024x2_S16384x64x2_0_64_0)) shapeCasts_S16384x64x2_S16384x128

/-- Level 8: the 128 path probabilities of level 7, each split by the decision pair of its node (nodes 128 … 255 of the stack), gives 256 path probabilities. -/
def level8 (d : FVec F S16384x1024 .f32) : FVec F S16384x256 .f32 :=
  shapeCast _ (mulf (broadcastInDim S16384x128x2 ![0, 1, 2] bcast_S16384x128x1_S16384x128x2_0_1_2 (broadcastInDim S16384x128x1 ![0, 1] bcast_S16384x128_S16384x128x1_0_1 (level7 d))) (extractStridedSlice S16384x128x2 ![0, 128, 0] (stack d) slices_S16384x1024x2_S16384x128x2_0_128_0)) shapeCasts_S16384x128x2_S16384x256

/-- Level 9: the 256 path probabilities of level 8, each split by the decision pair of its node (nodes 256 … 511 of the stack), gives 512 path probabilities. -/
def level9 (d : FVec F S16384x1024 .f32) : FVec F S16384x512 .f32 :=
  shapeCast _ (mulf (broadcastInDim S16384x256x2 ![0, 1, 2] bcast_S16384x256x1_S16384x256x2_0_1_2 (broadcastInDim S16384x256x1 ![0, 1] bcast_S16384x256_S16384x256x1_0_1 (level8 d))) (extractStridedSlice S16384x256x2 ![0, 256, 0] (stack d) slices_S16384x1024x2_S16384x256x2_0_256_0)) shapeCasts_S16384x256x2_S16384x512

/-- Level 10: the 512 path probabilities of level 9, each split by the decision pair of its node (nodes 512 … 1023 of the stack), gives 1024 path probabilities. -/
def level10 (d : FVec F S16384x1024 .f32) : FVec F S16384x1024 .f32 :=
  shapeCast _ (mulf (broadcastInDim S16384x512x2 ![0, 1, 2] bcast_S16384x512x1_S16384x512x2_0_1_2 (broadcastInDim S16384x512x1 ![0, 1] bcast_S16384x512_S16384x512x1_0_1 (level9 d))) (extractStridedSlice S16384x512x2 ![0, 512, 0] (stack d) slices_S16384x1024x2_S16384x512x2_0_512_0)) shapeCasts_S16384x512x2_S16384x1024

/-- Eleven arrays side by side along the columns: 2 + 2 + 4 + … + 1024 = 2048 columns. (The concatenation takes its
    operands as a list of arrays each paired with its shape; this names it as a plain function of the eleven arrays.) -/
def cat11 (a0 : FVec F S16384x2 .f32) (a1 : FVec F S16384x2 .f32) (a2 : FVec F S16384x4 .f32) (a3 : FVec F S16384x8 .f32) (a4 : FVec F S16384x16 .f32) (a5 : FVec F S16384x32 .f32) (a6 : FVec F S16384x64 .f32) (a7 : FVec F S16384x128 .f32) (a8 : FVec F S16384x256 .f32) (a9 : FVec F S16384x512 .f32) (a10 : FVec F S16384x1024 .f32) : FVec F S16384x2048 .f32 :=
  concatenate S16384x2048 1 [⟨S16384x2, a0⟩, ⟨S16384x2, a1⟩, ⟨S16384x4, a2⟩, ⟨S16384x8, a3⟩, ⟨S16384x16, a4⟩, ⟨S16384x32, a5⟩, ⟨S16384x64, a6⟩, ⟨S16384x128, a7⟩, ⟨S16384x256, a8⟩, ⟨S16384x512, a9⟩, ⟨S16384x1024, a10⟩] concatenates_S16384x2_S16384x2_S16384x4_S16384x8_S16384x16_S16384x32_S16384x64_S16384x128_S16384x256_S16384x512_S16384x1024_S16384x2048_d1

/-- The path probabilities of all ten levels, from the array of decision probabilities: two columns of ones, then
    the levels side by side. -/
def paths (d : FVec F S16384x1024 .f32) : FVec F S16384x2048 .f32 :=
  cat11 (broadcastInDim S16384x2 ![] bcast_S_S16384x2 (constant S_ .f32 0x3F800000#32)) (level1 d) (level2 d) (level3 d) (level4 d) (level5 d) (level6 d) (level7 d) (level8 d) (level9 d) (level10 d)

/-! ## The kernel program's last host operations compute `paths`

The result buffer is written once, by the last operation (the concatenation), from eleven buffers each written once
before it; every level's buffer is computed from the previous level's and from the stack's, and the stack's from the
probability buffer's, which no operation of the list writes. Reading the operations back from the last one gives
`paths` of the probability buffer's contents, whatever the other buffers held. -/

set_option maxRecDepth 8192 in
set_option maxHeartbeats 8000000 in
/-- What the 61 host operations after the region leave in the result buffer, from any contents of the buffers
    before them: the path probabilities of the probability buffer's contents. -/
theorem after_tail (X : Valuation τ sig (Elt F)) :
    StableHlo.after (hostOps1 (F := F)) X (Proc.devRef .tc main_v61) = paths (X (Proc.devRef .tc main_v3)) := by
  dsimp only [hostOps1]
  -- the last operation: the concatenation of the eleven operands' contents after the first sixty operations
  after_results_simp
  dsimp only [Matrix.cons_val]
  -- as a plain function of the eleven arrays, so that each can be read back on its own
  change cat11 _ _ _ _ _ _ _ _ _ _ _ = _
  -- each operand, read back through the operations before it
  after_results_simp
  rfl

end Cert.KernelIdeal.Paths

namespace Cert.ReferenceIdeal.Value

open Cert.ReferenceIdeal Cert.ReferenceIdeal.Gen Idealize.ShloMosaic Idealize.ShloMosaic.TcCoe Idealize.SL.Sem Idealize.ShloMosaic.StableHlo
open Cert.KernelIdeal.Paths (stack level1 level2 level3 level4 level5 level6 level7 level8 level9 level10 cat11 paths)

variable {F : FTy → Type} [FloatOps F]

/-! ## The reference's terms are the same functions of its probability term

The two programs' shapes are the same literals and their shape facts are proofs of the same propositions, so each
named term of the reference's run unfolds to the corresponding function here applied to the reference's
probability term. One level at a time, each using the one before. -/

theorem res_main_v15_eq (V0 : Valuation τ sig (Elt F)) : res_main_v15 V0 = stack (res_main_v10 V0) := rfl
theorem res_main_v22_eq (V0 : Valuation τ sig (Elt F)) : res_main_v22 V0 = level1 (res_main_v10 V0) := rfl
theorem res_main_v27_eq (V0 : Valuation τ sig (Elt F)) : res_main_v27 V0 = level2 (res_main_v10 V0) := rfl
theorem res_main_v32_eq (V0 : Valuation τ sig (Elt F)) : res_main_v32 V0 = level3 (res_main_v10 V0) := rfl
theorem res_main_v37_eq (V0 : Valuation τ sig (Elt F)) : res_main_v37 V0 = level4 (res_main_v10 V0) := rfl
theorem res_main_v42_eq (V0 : Valuation τ sig (Elt F)) : res_main_v42 V0 = level5 (res_main_v10 V0) := rfl
theorem res_main_v47_eq (V0 : Valuation τ sig (Elt F)) : res_main_v47 V0 = level6 (res_main_v10 V0) := rfl
theorem res_main_v52_eq (V0 : Valuation τ sig (Elt F)) : res_main_v52 V0 = level7 (res_main_v10 V0) := rfl
theorem res_main_v57_eq (V0 : Valuation τ sig (Elt F)) : res_main_v57 V0 = level8 (res_main_v10 V0) := rfl
theorem res_main_v62_eq (V0 : Valuation τ sig (Elt F)) : res_main_v62 V0 = level9 (res_main_v10 V0) := rfl

/-- The reference's result term is the same function of ITS probability term. -/
theorem _root_.Cert.KernelIdeal.Paths.ref_result (V0 : Valuation τ sig (Elt F)) :
    concatenate S16384x2048 1 [⟨S16384x2, (broadcastInDim S16384x2 ![] bcast_S_S16384x2 (constant S_ .f32 0x3F800000#32))⟩, ⟨S16384x2, (res_main_v22 V0)⟩, ⟨S16384x4, (res_main_v27 V0)⟩, ⟨S16384x8, (res_main_v32 V0)⟩, ⟨S16384x16, (res_main_v37 V0)⟩, ⟨S16384x32, (res_main_v42 V0)⟩, ⟨S16384x64, (res_main_v47 V0)⟩, ⟨S16384x128, (res_main_v52 V0)⟩, ⟨S16384x256, (res_main_v57 V0)⟩, ⟨S16384x512, (res_main_v62 V0)⟩, ⟨S16384x1024, (shapeCast _ (mulf (broadcastInDim S16384x512x2 ![0, 1, 2] bcast_S16384x512x1_S16384x512x2_0_1_2 (broadcastInDim S16384x512x1 ![0, 1] bcast_S16384x512_S16384x512x1_0_1 (res_main_v62 V0))) (extractStridedSlice S16384x512x2 ![0, 512, 0] (res_main_v15 V0) slices_S16384x1024x2_S16384x512x2_0_512_0)) shapeCasts_S16384x512x2_S16384x1024)⟩] concatenates_S16384x2_S16384x2_S16384x4_S16384x8_S16384x16_S16384x32_S16384x64_S16384x128_S16384x256_S16384x512_S16384x1024_S16384x2048_d1
      = paths (res_main_v10 V0) := by
  unfold paths cat11 level10
  rw [← res_main_v15_eq, ← res_main_v62_eq, ← res_main_v57_eq, ← res_main_v52_eq, ← res_main_v47_eq, ← res_main_v42_eq, ← res_main_v37_eq, ← res_main_v32_eq, ← res_main_v27_eq, ← res_main_v22_eq]

end Cert.ReferenceIdeal.Value

end
-- ==== Proof.KernelResult.lean ====
/-
  The idealized kernel program's result is the tree levels' function of the specification's probabilities.

  After the region the buffer of decision probabilities holds the specification's array; the ten tree levels are host
  operations that read that buffer and write their own result buffers only, so the program's result is the levels'
  function of that array, and the four arguments end unchanged.
-/
import proofs.«179038_j42520176230890_1_alg».proof.Proof.ProbArray
import proofs.«179038_j42520176230890_1_alg».proof.Proof.Paths

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.KernelIdeal.Tiles Cert.KernelIdeal.ProbArray Cert.KernelIdeal.Paths

variable (m : (ℓ : Loc nD τ sig) → Buf (Elt Ideal) ℓ) (ρ : Dev nD → PrngReg)

/-- What the tree levels leave in the result buffer: their function of the probabilities the region wrote. -/
theorem result_eq (c : Dev nD) :
    Pipeline.afterTail₀ cfgs (dats m) 0 (V0 m) [hostOps1] c main_v61 = paths (F := Ideal) (probOf m c) := by
  unfold Pipeline.afterTail₀
  simp only [List.flatten_cons, List.flatten_nil, List.append_nil]
  rw [after_tail]
  refine congrArg (paths (F := Ideal)) ?_
  exact (Pipeline.withArrays_arr spec0 launch0.win.arr_inj c _ _ 4).trans (final m c)

/-- The run: the result is that function, the arguments are unchanged. -/
theorem run : θ_run defs (onTc (τ := τ) (main (F := Ideal))) ⟨m, fun _ => 0, ρ⟩ (fun r => ∀ c : Dev nD,
      r.2.mem ((c.tc : Thread nD τ).loc main_v61) = paths (F := Ideal) (probOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v61 (Pipeline.mem_restRefs_of main_v61 (by decide) (by decide))).trans (result_eq m c), kept m r h c⟩)
    (run_main m ρ)

end Cert.KernelIdeal.Result

end
-- ==== Proof.RefProb.lean ====
/-
  The reference program's array of branching probabilities is the specification's.

  The reference forms (x · mask) · W by two whole matrix products, adds the bias b(q) to every row, and applies the
  expansion 1 / (1 + exp(-z)) of the logistic function entry by entry.  Read at an entry (r, q): each product is the
  plain sum over its contraction coordinate, the bias repeated down the rows reads b(q), the scalar word 0x3F800000
  repeated over the array is the number one, and 1 / (1 + exp(-z)) is the logistic function of z by definition.
-/
import proofs.«179038_j42520176230890_1_alg».proof.Proof.Gen.ReferenceIdeal.Run
import proofs.«179038_j42520176230890_1_alg».proof.Proof.Spec
import proofs.«179038_j42520176230890_1_alg».proof.Proof.LibPlainDot
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal
import Idealize.ShloMosaic.PureOps.Ideal.Laws
import Idealize.ShloMosaic.Lib.StableHlo.Run

noncomputable section

namespace Cert.ReferenceIdeal.RefProb
open Idealize.ShloMosaic Idealize.ShloMosaic.ValueIdx Idealize.ShloMosaic.TcCoe Idealize.ShloMosaic.StableHlo
open Cert.ReferenceIdeal Cert.ReferenceIdeal.Gen Cert.ReferenceIdeal.Value

/-- The dimension numbers of both matrix products: the left operand's second axis is contracted with the right
    operand's first, and there is no batch axis. -/
abbrev D := dot_S16384x1024_S1024x1024_S16384x1024_1_0_0_1_n_n

/-- A product with these dimension numbers at entry (r, c) is the sum over k of left(r, k) · right(k, c). -/
theorem dot_apply (lhs : FVec Ideal (⟨2, ![16384, 1024]⟩ : Shape) .f32) (rhs : FVec Ideal (⟨2, ![1024, 1024]⟩ : Shape) .f32)
    (r : Fin 16384) (c : Fin 1024) :
    Host.dotGeneral D none lhs rhs (ix2 r c) = ∑ k : Fin 1024, lhs (ix2 r k) * rhs (ix2 k c) :=
  Cert.LibPlainDot.dotGeneral_apply (M := 16384) (K := 1024) (N := 1024) D rfl rfl rfl rfl (fun _ _ => rfl) (fun _ _ => rfl)
    none .single lhs rhs r c

/-- The bias, first given a leading axis of extent one and then repeated down the 16384 rows, read at (r, q), is b(q). -/
theorem bias_apply (b : FVec Ideal (⟨1, ![1024]⟩ : Shape) .f32) (r : Fin 16384) (q : Fin 1024) :
    broadcastInDim S16384x1024 ![0, 1] bcast_S1x1024_S16384x1024_0_1
      (broadcastInDim S1x1024 ![1] bcast_S1024_S1x1024_1 b) (ix2 r q) = b (ix1 q) := by
  refine (broadcastInDim_oneRow_apply (m := 16384) (n := 1024) bcast_S1x1024_S16384x1024_0_1 _ r q).trans ?_
  refine broadcastInDim_apply ![1] bcast_S1024_S1x1024_1 b (ix2 (0 : Fin 1) q) (ix1 q) ?_
  intro a
  fin_cases a
  show q.val = if (1024 : ℕ) = 1 then 0 else q.val
  rw [if_neg (by norm_num)]

/-- The expansion 1 / (1 + exp(-z)) of the logistic function, entry by entry, where `one` is an array whose entry
    there is the number one. -/
theorem expansion_apply {s : Shape} (one z : FVec Ideal s .f32) (i : s.Idx) (h1 : one i = 1) :
    Host.divf one (addf one (Host.exp (Host.negf z))) i = Ideal.logistic (z i) := by
  show Ideal.div (one i) (one i + Ideal.exp (-(z i))) = Ideal.logistic (z i)
  rw [h1]
  rfl

/-- The reference's array of branching probabilities is the specification's. -/
theorem res_main_v10_eq (V0 : Valuation τ sig (Elt Ideal)) :
    res_main_v10 (F := Ideal) V0
      = Cert.Spec.prob (V0 (Proc.devRef .tc main_arg0)) (V0 (Proc.devRef .tc main_arg1))
          (V0 (Proc.devRef .tc main_arg2)) (V0 (Proc.devRef .tc main_arg3)) := by
  funext i
  obtain ⟨r, q, rfl⟩ : ∃ r q, i = ix2 r q := ⟨i 0, i 1, eq_ix2 i⟩
  rw [Cert.Spec.prob_apply]
  unfold res_main_v10
  refine (expansion_apply _ _ (ix2 r q) ?_).trans (congrArg Ideal.logistic ?_)
  · -- the scalar word 0x3F800000, repeated over the array, is the number one everywhere
    exact (broadcastInDim_scalar_apply bcast_S_S16384x1024 _ (ix2 r q)).trans Ideal.ofBits_one_f32
  · -- the logit: the two products as plain sums, plus the bias
    refine (addf_apply _ _ (ix2 r q)).trans ?_
    unfold Cert.Spec.logit
    refine congrArg₂ (· + ·) ?_ (bias_apply _ r q)
    rw [dot_apply]
    exact Finset.sum_congr rfl fun k' _ => by rw [dot_apply]

end Cert.ReferenceIdeal.RefProb

end
-- ==== Proof.lean ====
/-
  Two programs compute the path probabilities of a soft decision tree of depth ten over 16384 samples: the decision
  probabilities d = logistic((x · mask) · W + b), then level by level the products along each root-to-node path.  The
  kernel program computes d on the matrix unit, sixteen row tiles of 1024 rows, and the levels as plain array
  operations; the reference computes d by two whole matrix products and the logistic function spelt out as
  1 / (1 + exp(−z)), and the same levels.

  Frames.  Each kernel program is conversions, one tiled region, and the levels; the region's body loads whole tiles
  and stores one whole tile, so the launch theorem for a region followed by host operations gives the run, and no
  argument is ever written.  The reference is a straight line of host operations.

  Values, at the ideal instance.  A tile's entry is the logistic function of a row of x times the mask times a column
  of W plus the bias, the same plain sums the reference's two products are; the narrowing conversions are the identity
  on extended reals; the logistic function IS 1 / (1 + exp(−z)) there.  So both programs' probability arrays are the
  specification's, and the levels are one function of that array in both.  Nothing in the argument uses finiteness:
  no sum is regrouped.
-/
import proofs.«179038_j42520176230890_1_alg».proof.Defs
import proofs.«179038_j42520176230890_1_alg».proof.Proof.KernelTiles
import proofs.«179038_j42520176230890_1_alg».proof.Proof.IdealTiles
import proofs.«179038_j42520176230890_1_alg».proof.Proof.KernelResult
import proofs.«179038_j42520176230890_1_alg».proof.Proof.RefProb
import proofs.«179038_j42520176230890_1_alg».proof.Proof.Paths
import proofs.«179038_j42520176230890_1_alg».proof.Proof.Gen.Kernel
import proofs.«179038_j42520176230890_1_alg».proof.Proof.Gen.KernelIdeal
import proofs.«179038_j42520176230890_1_alg».proof.Proof.Gen.ReferenceIdeal
import proofs.«179038_j42520176230890_1_alg».proof.Proof.Gen.ReferenceIdeal.Run
import proofs.«179038_j42520176230890_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Tiles.frame m ρ

theorem frame_ki : Cert.frame_KernelIdeal := fun m ρ _ => Cert.KernelIdeal.Tiles.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both results are the levels' function of the specification's probabilities of arguments that agree. -/
theorem algebraic : Cert.algebraic_KernelIdeal_ReferenceIdeal := by
  intro m ρ m' ρ' _ hagree
  refine ⟨fun c => Cert.KernelIdeal.Paths.paths (F := Ideal) (Cert.KernelIdeal.ProbArray.probOf m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.KernelIdeal.Paths.ref_result (StableHlo.launchContents m' c)).trans ?_
  refine congrArg (Cert.KernelIdeal.Paths.paths (F := Ideal)) ?_
  rw [Cert.ReferenceIdeal.RefProb.res_main_v10_eq]
  unfold Cert.KernelIdeal.ProbArray.probOf
  exact congr (congr (congr (congrArg Cert.Spec.prob (hagree c).1) (hagree c).2.1) (hagree c).2.2.1) (hagree c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
